-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x1 : Shape := ⟨2, ![4194304, 1]⟩
abbrev S1x16 : Shape := ⟨2, ![1, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x16 : Shape := ⟨2, ![32, 16]⟩
abbrev S16x3 : Shape := ⟨2, ![16, 3]⟩
abbrev S3 : Shape := ⟨1, ![3]⟩
abbrev S_ : Shape := ⟨0, ![]⟩

class Facts : Prop where
  bcast_S_S4194304x1 : S_.BroadcastsInDim S4194304x1 (![] : Fin 0 → Fin S4194304x1.rank)
  reducesTo_S4194304x1_S_d0_1 : S4194304x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg7 : FVec F S32x16 .f32) (main_arg8 : FVec F S16 .f32) (main_arg9 : FVec F S16x3 .f32) (main_arg10 : FVec F S3 .f32) (main_v33 : IVec S_ 1) : IVec S_ 1 :=
  let main_v34 : FVec F S32x16 .f32 := Host.absf main_arg7
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x3 .f32 := Host.absf main_arg9
  let main_cst_16 : FVec F S_ .f32 := constant S_ .f32 0x7F800000#32
  let main_v45 : FVec F S16x3 .f32 := broadcastInDim S16x3 ![] bcast_S_S16x3 main_cst_16
  let main_v46 : IVec S16x3 1 := cmpf .olt main_v44 main_v45
  let main_c_17 : IVec S_ 1 := constantI S_ 1 1#1
  let main_v47 : IVec S_ 1 := (fun x v => Host.reduce IntOp.andi x v reducesTo_S16x3_S_d0_1 h_S_) main_v46 main_c_17
  let main_v48 : IVec S_ 1 := andi main_v43 main_v47
  let main_v49 : FVec F S3 .f32 := Host.absf main_arg10
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg4 : FVec F S32 .f32) (main_arg5 : FVec F S32x32 .f32) (main_arg6 : FVec F S32 .f32) (main_arg7 : FVec F S32x16 .f32) (main_arg8 : FVec F S16 .f32) (main_arg9 : FVec F S16x3 .f32) (main_arg10 : FVec F S3 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4194304x1 .f32) (main_arg1 : FVec F S1x16 .f32) (main_arg2 : FVec F S16 .f32) (main_arg3 : FVec F S16x32 .f32) (main_arg4 : FVec F S32 .f32) (main_arg5 : FVec F S32x32 .f32) (main_arg6 : FVec F S32 .f32) (main_arg7 : FVec F S32x16 .f32) (main_arg8 : FVec F S16 .f32) (main_arg9 : FVec F S16x3 .f32) (main_arg10 : FVec F S3 .f32) : IVec S_ 1 :=
  let main_v0 : FVec F S4194304x1 .f32 := Host.absf main_arg0
  let main_cst : FVec F S_ .f32 := constant S_ .f32 0x7F800000#32
  let main_v1 : FVec F S4194304x1 .f32 := broadcastInDim S4194304x1 ![] bcast_S_S4194304x1 main_cst
  let main_v2 : IVec S4194304x1 1 := cmpf .olt main_v0 main_v1
  let main_c : IVec S_ 1 := constantI S_ 1 1#1
  let main_v3 : IVec S_ 1 := (fun x v => Host.reduce IntOp.andi x v reducesTo_S4194304x1_S_d0_1 h_S_) main_v2 main_c
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg3
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg4 main_arg5 main_arg6 main_arg7 main_arg8 main_arg9 main_arg10 main_v13 main_v16
-- ==== Kernel.lean ====
abbrev S4194304x1 : Shape := ⟨2, ![4194304, 1]⟩
abbrev S1x16 : Shape := ⟨2, ![1, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x16 : Shape := ⟨2, ![32, 16]⟩
abbrev S16x3 : Shape := ⟨2, ![16, 3]⟩
abbrev S3 : Shape := ⟨1, ![3]⟩
abbrev S1x4194304 : Shape := ⟨2, ![1, 4194304]⟩
abbrev S16x1 : Shape := ⟨2, ![16, 1]⟩
abbrev S3x16 : Shape := ⟨2, ![3, 16]⟩
abbrev S32x1 : Shape := ⟨2, ![32, 1]⟩
abbrev S3x1 : Shape := ⟨2, ![3, 1]⟩
abbrev S3x4194304 : Shape := ⟨2, ![3, 4194304]⟩
abbrev S1x65536 : Shape := ⟨2, ![1, 65536]⟩
abbrev S3x65536 : Shape := ⟨2, ![3, 65536]⟩
abbrev S1x8192 : Shape := ⟨2, ![1, 8192]⟩
abbrev S16x8192 : Shape := ⟨2, ![16, 8192]⟩
abbrev S32x8192 : Shape := ⟨2, ![32, 8192]⟩
abbrev S3x8192 : Shape := ⟨2, ![3, 8192]⟩
abbrev S4194304x3 : Shape := ⟨2, ![4194304, 3]⟩

abbrev nBuf : Space → Nat
  | .hbm => 24
  | .vmem => 14
  | .smem => 0
  | _ => 0

abbrev bufTy : (tb : Table) → Fin (tcTables nBuf tb) → BufTy
  | .hbm, ⟨0, _⟩ => ⟨S4194304x1, .f32⟩
  | .hbm, ⟨1, _⟩ => ⟨S1x16, .f32⟩
  | .hbm, ⟨2, _⟩ => ⟨S16, .f32⟩
  | .hbm, ⟨3, _⟩ => ⟨S16x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S16x3, .f32⟩
  | .hbm, ⟨10, _⟩ => ⟨S3, .f32⟩
  | .hbm, ⟨11, _⟩ => ⟨S1x4194304, .f32⟩
  | .hbm, ⟨12, _⟩ => ⟨S16x1, .f32⟩
  | .hbm, ⟨13, _⟩ => ⟨S32x16, .f32⟩
  | .hbm, ⟨14, _⟩ => ⟨S32x32, .f32⟩
  | .hbm, ⟨15, _⟩ => ⟨S16x32, .f32⟩
  | .hbm, ⟨16, _⟩ => ⟨S3x16, .f32⟩
  | .hbm, ⟨17, _⟩ => ⟨S16x1, .f32⟩
  | .hbm, ⟨18, _⟩ => ⟨S32x1, .f32⟩
  | .hbm, ⟨19, _⟩ => ⟨S32x1, .f32⟩
  | .hbm, ⟨20, _⟩ => ⟨S16x1, .f32⟩
  | .hbm, ⟨21, _⟩ => ⟨S3x1, .f32⟩
  | .hbm, ⟨22, _⟩ => ⟨S3x4194304, .f32⟩
  | .hbm, ⟨23, _⟩ => ⟨S4194304x3, .f32⟩
  | .local _ .vmem, ⟨0, _⟩ => ⟨S1x65536, .f32⟩
  | .local _ .vmem, ⟨1, _⟩ => ⟨S1x65536, .f32⟩
  | .local _ .vmem, ⟨2, _⟩ => ⟨S16x1, .f32⟩
  | .local _ .vmem, ⟨3, _⟩ => ⟨S16x1, .f32⟩
  | .local _ .vmem, ⟨4, _⟩ => ⟨S32x16, .f32⟩
  | .local _ .vmem, ⟨5, _⟩ => ⟨S32x1, .f32⟩
  | .local _ .vmem, ⟨6, _⟩ => ⟨S32x32, .f32⟩
  | .local _ .vmem, ⟨7, _⟩ => ⟨S32x1, .f32⟩
  | .local _ .vmem, ⟨8, _⟩ => ⟨S16x32, .f32⟩
  | .local _ .vmem, ⟨9, _⟩ => ⟨S16x1, .f32⟩
  | .local _ .vmem, ⟨10, _⟩ => ⟨S3x16, .f32⟩
  | .local _ .vmem, ⟨11, _⟩ => ⟨S3x1, .f32⟩
  | .local _ .vmem, ⟨12, _⟩ => ⟨S3x65536, .f32⟩
  | .local _ .vmem, ⟨13, _⟩ => ⟨S3x65536, .f32⟩
  | _, _ => ⟨S4194304x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v20 : BitVec 32 := Scalar.addi c0_i32 c8_i32
  let c1_i32 : BitVec 32 := 1#32
  ⟨c0_i32, v20, c1_i32⟩
def k0_mult1 (k0_t1 : Fin k0_t1_loop.trips) : BitVec 32 :=
  let c0_i32_21 : BitVec 32 := 0#32
  let c0_i32 : BitVec 32 := 0#32
  let c1_i32 : BitVec 32 := 1#32
  let arg13 : BitVec 32 := Scf.iv c0_i32 c1_i32 k0_t1
  let c1_i32_20 : BitVec 32 := 1#32
  let v21 : BitVec 32 := Scalar.muli arg13 c1_i32_20
  let v22 : BitVec 32 := Scalar.addi c0_i32_21 v21
  let c8192_i32 : BitVec 32 := 8192#32
  let v23 : BitVec 32 := Scalar.muli v22 c8192_i32
  v23
def k0_off1 (k0_t1 : Fin k0_t1_loop.trips) : Fin 2 → Nat :=
  let c0_22 : Index := 0#32
  let c0_i32_21 : BitVec 32 := 0#32
  let c0_i32 : BitVec 32 := 0#32
  let c1_i32 : BitVec 32 := 1#32
  let arg13 : BitVec 32 := Scf.iv c0_i32 c1_i32 k0_t1
  let c1_i32_20 : BitVec 32 := 1#32
  let v21 : BitVec 32 := Scalar.muli arg13 c1_i32_20
  let v22 : BitVec 32 := Scalar.addi c0_i32_21 v21
  let c8192_i32 : BitVec 32 := 8192#32
  let v23 : BitVec 32 := Scalar.muli v22 c8192_i32
  let v24 : BitVec 32 := v23
  let v25 : Index := Scalar.indexCast v24
  ![0, v25.toNat]
def k0_off2 (k0_t1 : Fin k0_t1_loop.trips) : Fin 2 → Nat :=
  let c0_26 : Index := 0#32
  let c0_i32_21 : BitVec 32 := 0#32
  let c0_i32 : BitVec 32 := 0#32
  let c1_i32 : BitVec 32 := 1#32
  let arg13 : BitVec 32 := Scf.iv c0_i32 c1_i32 k0_t1
  let c1_i32_20 : BitVec 32 := 1#32
  let v21 : BitVec 32 := Scalar.muli arg13 c1_i32_20
  let v22 : BitVec 32 := Scalar.addi c0_i32_21 v21
  let c8192_i32 : BitVec 32 := 8192#32
  let v23 : BitVec 32 := Scalar.muli v22 c8192_i32
  let v24 : BitVec 32 := v23
  let v50 : Index := Scalar.indexCast v24
  ![0, v50.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3x65536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S4194304x1_S1x4194304 : S4194304x1.ShapeCasts S1x4194304
  transposes_S1x16_S16x1_1_0 : S1x16.Transposes [1, 0] S16x1
  transposes_S16x32_S32x16_1_0 : S16x32.Transposes [1, 0] S32x16
  transposes_S32x32_S32x32_1_0 : S32x32.Transposes [1, 0] S32x32
  transposes_S32x16_S16x32_1_0 : S32x16.Transposes [1, 0] S16x32
  transposes_S16x3_S3x16_1_0 : S16x3.Transposes [1, 0] S3x16
  shapeCasts_S16_S16x1 : S16.ShapeCasts S16x1
  shapeCasts_S32_S32x1 : S32.ShapeCasts S32x1
  shapeCasts_S3_S3x1 : S3.ShapeCasts S3x1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S3x16_S3x16_0_0 : ∀ a, (![0, 0] : Fin 2 → Nat) a + S3x16.size a ≤ S3x16.size a
  h_S3x16 : 0 < S3x16.numel
  shapeCasts_S3x16_S3x16 : S3x16.ShapeCasts S3x16
  inb_S3x1_S3x1_0_0 : ∀ a, (![0, 0] : Fin 2 → Nat) a + S3x1.size a ≤ S3x1.size a
  h_S3x1 : 0 < S3x1.numel
  shapeCasts_S3x1_S3x1 : S3x1.ShapeCasts S3x1
  h_S1x8192 : 0 < S1x8192.numel
  shapeCasts_S1x8192_S1x8192 : S1x8192.ShapeCasts S1x8192
  broadcasts_S16x1_S16x8192 : S16x1.Broadcasts S16x8192
  broadcasts_S1x8192_S16x8192 : S1x8192.Broadcasts S16x8192
  broadcasts_S32x1_S32x8192 : S32x1.Broadcasts S32x8192
  broadcasts_S3x1_S3x8192 : S3x1.Broadcasts S3x8192
  h_S3x8192 : 0 < S3x8192.numel
  transposes_S3x4194304_S4194304x3_1_0 : S3x4194304.Transposes [1, 0] S4194304x3
  dot_S32x16_S16x8192_S32x8192_1_0_0_1_n_n_wf : DotDims.WF S32x16 S16x8192 S32x8192 [1] [0] [0] [1] [] []
  dot_S32x32_S32x8192_S32x8192_1_0_0_1_n_n_wf : DotDims.WF S32x32 S32x8192 S32x8192 [1] [0] [0] [1] [] []
  dot_S16x32_S32x8192_S16x8192_1_0_0_1_n_n_wf : DotDims.WF S16x32 S32x8192 S16x8192 [1] [0] [0] [1] [] []
  dot_S3x16_S16x8192_S3x8192_1_0_0_1_n_n_wf : DotDims.WF S3x16 S16x8192 S3x8192 [1] [0] [0] [1] [] []
  hrank0 : 0 < grid0.rank
  k0_t1_ok : k0_t1_loop.OK
  k0_mult1_dvd : ∀ k0_t1 : Fin k0_t1_loop.trips, 8192 ∣ (k0_mult1 k0_t1).toNat
  k0_off1_inb : ∀ k0_t1 : Fin k0_t1_loop.trips, ∀ a, (k0_off1 k0_t1) a + S1x8192.size a ≤ S1x65536.size a
  k0_off2_inb : ∀ k0_t1 : Fin k0_t1_loop.trips, ∀ a, (k0_off2 k0_t1) a + S3x8192.size a ≤ S3x65536.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x65536.size a ≤ S1x4194304.size a
  hwx0_0 : ∀ i : grid0.Coords, EltTy.bits .f32 = 32 ∨ (Rect.block (s := S1x4194304) S1x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S16x1.size a
  hwx0_1 : ∀ i : grid0.Coords, EltTy.bits .f32 = 32 ∨ (Rect.block (s := S16x1) S16x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x32.size a ≤ S16x32.size a
  hwx0_7 : ∀ i : grid0.Coords, EltTy.bits .f32 = 32 ∨ (Rect.block (s := S16x32) S16x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x1.size a ≤ S16x1.size a
  hwx0_8 : ∀ i : grid0.Coords, EltTy.bits .f32 = 32 ∨ (Rect.block (s := S16x1) S16x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x16.size a ≤ S3x16.size a
  hwx0_9 : ∀ i : grid0.Coords, EltTy.bits .f32 = 32 ∨ (Rect.block (s := S3x16) S3x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x1.size a ≤ S3x1.size a
  hwx0_10 : ∀ i : grid0.Coords, EltTy.bits .f32 = 32 ∨ (Rect.block (s := S3x1) S3x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3x65536.size a ≤ S3x4194304.size a
  hwx0_11 : ∀ i : grid0.Coords, EltTy.bits .f32 = 32 ∨ (Rect.block (s := S3x4194304) S3x65536.size (cc0_transform_11 i) (hinb0_11 i)).WholeWords (EltTy.packing .f32)

variable [Facts₀]

def dot_S32x16_S16x8192_S32x8192_1_0_0_1_n_n : DotDims S32x16 S16x8192 S32x8192 where
  lhsContracting := [1]
  rhsContracting := [0]
  lhsNonContracting := [0]
  rhsNonContracting := [1]
  lhsBatch := []
  rhsBatch := []
  wf := dot_S32x16_S16x8192_S32x8192_1_0_0_1_n_n_wf
def dot_S32x32_S32x8192_S32x8192_1_0_0_1_n_n : DotDims S32x32 S32x8192 S32x8192 where
  lhsContracting := [1]
  rhsContracting := [0]
  lhsNonContracting := [0]
  rhsNonContracting := [1]
  lhsBatch := []
  rhsBatch := []
  wf := dot_S32x32_S32x8192_S32x8192_1_0_0_1_n_n_wf
def dot_S16x32_S32x8192_S16x8192_1_0_0_1_n_n : DotDims S16x32 S32x8192 S16x8192 where
  lhsContracting := [1]
  rhsContracting := [0]
  lhsNonContracting := [0]
  rhsNonContracting := [1]
  lhsBatch := []
  rhsBatch := []
  wf := dot_S16x32_S32x8192_S16x8192_1_0_0_1_n_n_wf
def dot_S3x16_S16x8192_S3x8192_1_0_0_1_n_n : DotDims S3x16 S16x8192 S3x8192 where
  lhsContracting := [1]
  rhsContracting := [0]
  lhsNonContracting := [0]
  rhsNonContracting := [1]
  lhsBatch := []
  rhsBatch := []
  wf := dot_S3x16_S16x8192_S3x8192_1_0_0_1_n_n_wf

abbrev win0_0 : Pipeline.Window sig grid0 :=
  Pipeline.Window.ofSpec (Memref.whole main_v0) S1x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S16x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S16x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S3x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S3x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S3x65536.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4194304x1 : Shape := ⟨2, ![4194304, 1]⟩
abbrev S1x16 : Shape := ⟨2, ![1, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x16 : Shape := ⟨2, ![32, 16]⟩
abbrev S16x3 : Shape := ⟨2, ![16, 3]⟩
abbrev S3 : Shape := ⟨1, ![3]⟩
abbrev S4194304x16 : Shape := ⟨2, ![4194304, 16]⟩
abbrev S4194304x32 : Shape := ⟨2, ![4194304, 32]⟩
abbrev S1x32 : Shape := ⟨2, ![1, 32]⟩
abbrev S4194304x3 : Shape := ⟨2, ![4194304, 3]⟩
abbrev S1x3 : Shape := ⟨2, ![1, 3]⟩

abbrev nBuf : Space → Nat
  | .hbm => 36
  | .vmem => 0
  | .smem => 0
  | _ => 0

abbrev bufTy : (tb : Table) → Fin (tcTables nBuf tb) → BufTy
  | .hbm, ⟨0, _⟩ => ⟨S4194304x1, .f32⟩
  | .hbm, ⟨1, _⟩ => ⟨S1x16, .f32⟩
  | .hbm, ⟨2, _⟩ => ⟨S16, .f32⟩
  | .hbm, ⟨3, _⟩ => ⟨S16x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S16x3, .f32⟩
  | .hbm, ⟨10, _⟩ => ⟨S3, .f32⟩
  | .hbm, ⟨11, _⟩ => ⟨S4194304x16, .f32⟩
  | .hbm, ⟨12, _⟩ => ⟨S1x16, .f32⟩
  | .hbm, ⟨13, _⟩ => ⟨S4194304x16, .f32⟩
  | .hbm, ⟨14, _⟩ => ⟨S4194304x16, .f32⟩
  | .hbm, ⟨15, _⟩ => ⟨S4194304x16, .f32⟩
  | .hbm, ⟨16, _⟩ => ⟨S4194304x32, .f32⟩
  | .hbm, ⟨17, _⟩ => ⟨S1x32, .f32⟩
  | .hbm, ⟨18, _⟩ => ⟨S4194304x32, .f32⟩
  | .hbm, ⟨19, _⟩ => ⟨S4194304x32, .f32⟩
  | .hbm, ⟨20, _⟩ => ⟨S4194304x32, .f32⟩
  | .hbm, ⟨21, _⟩ => ⟨S4194304x32, .f32⟩
  | .hbm, ⟨22, _⟩ => ⟨S1x32, .f32⟩
  | .hbm, ⟨23, _⟩ => ⟨S4194304x32, .f32⟩
  | .hbm, ⟨24, _⟩ => ⟨S4194304x32, .f32⟩
  | .hbm, ⟨25, _⟩ => ⟨S4194304x32, .f32⟩
  | .hbm, ⟨26, _⟩ => ⟨S4194304x16, .f32⟩
  | .hbm, ⟨27, _⟩ => ⟨S1x16, .f32⟩
  | .hbm, ⟨28, _⟩ => ⟨S4194304x16, .f32⟩
  | .hbm, ⟨29, _⟩ => ⟨S4194304x16, .f32⟩
  | .hbm, ⟨30, _⟩ => ⟨S4194304x16, .f32⟩
  | .hbm, ⟨31, _⟩ => ⟨S4194304x3, .f32⟩
  | .hbm, ⟨32, _⟩ => ⟨S1x3, .f32⟩
  | .hbm, ⟨33, _⟩ => ⟨S4194304x3, .f32⟩
  | .hbm, ⟨34, _⟩ => ⟨S4194304x3, .f32⟩
  | .hbm, ⟨35, _⟩ => ⟨S4194304x3, .f32⟩
  | _, _ => ⟨S4194304x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S4194304x16_0_1 : S1x16.BroadcastsInDim S4194304x16 (![0, 1] : Fin 2 → Fin S4194304x16.rank)
  bcast_S32_S1x32_1 : S32.BroadcastsInDim S1x32 (![1] : Fin 1 → Fin S1x32.rank)
  bcast_S1x32_S4194304x32_0_1 : S1x32.BroadcastsInDim S4194304x32 (![0, 1] : Fin 2 → Fin S4194304x32.rank)
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  dot_S4194304x1_S1x16_S4194304x16_1_0_0_1_n_n_wf : DotDims.WF S4194304x1 S1x16 S4194304x16 [1] [0] [0] [1] [] []
  dot_S4194304x16_S16x32_S4194304x32_1_0_0_1_n_n_wf : DotDims.WF S4194304x16 S16x32 S4194304x32 [1] [0] [0] [1] [] []
  dot_S4194304x32_S32x32_S4194304x32_1_0_0_1_n_n_wf : DotDims.WF S4194304x32 S32x32 S4194304x32 [1] [0] [0] [1] [] []
  dot_S4194304x32_S32x16_S4194304x16_1_0_0_1_n_n_wf : DotDims.WF S4194304x32 S32x16 S4194304x16 [1] [0] [0] [1] [] []
  dot_S4194304x16_S16x3_S4194304x3_1_0_0_1_n_n_wf : DotDims.WF S4194304x16 S16x3 S4194304x3 [1] [0] [0] [1] [] []

variable [Facts₀]

def dot_S4194304x1_S1x16_S4194304x16_1_0_0_1_n_n : DotDims S4194304x1 S1x16 S4194304x16 where
  lhsContracting := [1]
  rhsContracting := [0]
  lhsNonContracting := [0]
  rhsNonContracting := [1]
  lhsBatch := []
  rhsBatch := []
  wf := dot_S4194304x1_S1x16_S4194304x16_1_0_0_1_n_n_wf
def dot_S4194304x16_S16x32_S4194304x32_1_0_0_1_n_n : DotDims S4194304x16 S16x32 S4194304x32 where
  lhsContracting := [1]
  rhsContracting := [0]
  lhsNonContracting := [0]
  rhsNonContracting := [1]
  lhsBatch := []
  rhsBatch := []
  wf := dot_S4194304x16_S16x32_S4194304x32_1_0_0_1_n_n_wf
def dot_S4194304x32_S32x32_S4194304x32_1_0_0_1_n_n : DotDims S4194304x32 S32x32 S4194304x32 where
  lhsContracting := [1]
  rhsContracting := [0]
  lhsNonContracting := [0]
  rhsNonContracting := [1]
  lhsBatch := []
  rhsBatch := []
  wf := dot_S4194304x32_S32x32_S4194304x32_1_0_0_1_n_n_wf
def dot_S4194304x32_S32x16_S4194304x16_1_0_0_1_n_n : DotDims S4194304x32 S32x16 S4194304x16 where
  lhsContracting := [1]
  rhsContracting := [0]
  lhsNonContracting := [0]
  rhsNonContracting := [1]
  lhsBatch := []
  rhsBatch := []
  wf := dot_S4194304x32_S32x16_S4194304x16_1_0_0_1_n_n_wf
def dot_S4194304x16_S16x3_S4194304x3_1_0_0_1_n_n : DotDims S4194304x16 S16x3 S4194304x3 where
  lhsContracting := [1]
  rhsContracting := [0]
  lhsNonContracting := [0]
  rhsNonContracting := [1]
  lhsBatch := []
  rhsBatch := []
  wf := dot_S4194304x16_S16x3_S4194304x3_1_0_0_1_n_n_wf

class Facts : Prop extends Facts₀ where

variable [Facts]
-- ==== Proof.LibTanhLayer.lean ====
/-
  One dense layer followed by tanh, at one sample, on the extended reals, and the two ways a program spells it.

  `layer W b h` maps the activations `h` of one sample (`K` of them) to `tanh (∑ k, h k · W k j + b j)`, `j` ranging over
  the `M` outputs. A program that keeps the samples along the ROWS of its arrays computes a layer as a host product
  `H · W` (`dot_general`, `N × K` by `K × M`) plus a bias vector laid along every row by two `broadcast_in_dim`s
  (`host_layer`); one that keeps them along the COLUMNS computes a matrix-unit product `Wᵀ · H` (`M × K` by `K × N`)
  into a zero accumulator plus a bias column broadcast along the lanes (`unit_layer`), and a layer of ONE input as a
  product of a broadcast weight column and the broadcast row of samples (`unit_first`). Entry by entry each is the same
  sum of the same products, with the two factors exchanged in the column layout: multiplication commutes and no sum is
  regrouped, so nothing here needs an entry to be finite. The lemmas take the activations of the sample as a
  hypothesis (`hH`), so they nest through a chain of layers.

  Beside them three layout facts: an `[a, 1]` column broadcast to `[a, b]` (`broadcastTo_a1_ab_apply`), an `[N, 1]`
  column relaid as a `[1, N]` row (`cast_row_apply`) and an `[M]` vector relaid as an `[M, 1]` column (`cast_col_apply`),
  each read at an index. Every extent is a variable; the dot records are taken up to equality with `DotDims.plain`,
  which a printed record of contracting axes [1] × [0] meets by `rfl`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.KernelVsHost

noncomputable section

namespace Mlp

open Idealize.ShloMosaic Idealize.ShloMosaic.ValueIdx

/-- One layer at one sample: output `j` is `tanh (∑ k, h k · W k j + b j)`. -/
def layer {K M : ℕ} (W : Fin K → Fin M → EReal) (b : Fin M → EReal) (h : Fin K → EReal) : Fin M → EReal :=
  fun j => Ideal.tanh ((∑ k : Fin K, h k * W k j) + b j)

/-- A column broadcast along its rows: an `[a, 1]` array broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Samples along the columns: `tanh (Wᵀ · H + b)` with `Wᵀ` of `M × K` entries, the activations `H` of `K × N` and a
    bias column, read at output `j` of sample `q`, is the layer of sample `q`'s activations. -/
theorem unit_layer {M K N : ℕ} (D : DotDims ⟨2, ![M, K]⟩ ⟨2, ![K, N]⟩ ⟨2, ![M, N]⟩) (hD : D = DotDims.plain M K N)
    (W : FVec Ideal ⟨2, ![M, K]⟩ .f32) (H : FVec Ideal ⟨2, ![K, N]⟩ .f32) (b : FVec Ideal ⟨2, ![M, 1]⟩ .f32)
    (hb : (⟨2, ![M, 1]⟩ : Shape).Broadcasts ⟨2, ![M, N]⟩) (h : Fin K → EReal) (q : Fin N)
    (hH : ∀ k, H (ix2 k q) = h k) (j : Fin M) :
    tanh (addf (matmul D none W H (constant ⟨2, ![M, N]⟩ .f32 0x00000000#32)) (broadcastTo ⟨2, ![M, N]⟩ b hb)) (ix2 j q)
      = layer (fun k j => W (ix2 j k)) (fun j => b (ix2 j (0 : Fin 1))) h j := by
  subst hD
  have e1 : matmul (DotDims.plain M K N) none W H (constant ⟨2, ![M, N]⟩ .f32 0x00000000#32) (ix2 j q)
      = ∑ k : Fin K, W (ix2 j k) * H (ix2 k q) := by
    rw [matmul_zero_eq_dotGeneral]; exact StackMember.dotGeneral_plain_apply none W H j q
  show Ideal.tanh (matmul (DotDims.plain M K N) none W H (constant ⟨2, ![M, N]⟩ .f32 0x00000000#32) (ix2 j q)
      + broadcastTo ⟨2, ![M, N]⟩ b hb (ix2 j q)) = _
  rw [e1, broadcastTo_a1_ab_apply]
  unfold layer
  refine congrArg (fun s => Ideal.tanh (s + b (ix2 j (0 : Fin 1)))) (Finset.sum_congr rfl fun k _ => ?_)
  rw [hH k, mul_comm]

/-- Samples along the columns, the first layer: with one input the product is that of a weight column and the row of
    samples, both broadcast. -/
theorem unit_first {M N : ℕ} (w b : FVec Ideal ⟨2, ![M, 1]⟩ .f32) (x : FVec Ideal ⟨2, ![1, N]⟩ .f32)
    (hw : (⟨2, ![M, 1]⟩ : Shape).Broadcasts ⟨2, ![M, N]⟩) (hx : (⟨2, ![1, N]⟩ : Shape).Broadcasts ⟨2, ![M, N]⟩)
    (j : Fin M) (q : Fin N) :
    tanh (addf (mulf (broadcastTo ⟨2, ![M, N]⟩ w hw) (broadcastTo ⟨2, ![M, N]⟩ x hx)) (broadcastTo ⟨2, ![M, N]⟩ b hw)) (ix2 j q)
      = layer (fun (k : Fin 1) j => w (ix2 j k)) (fun j => b (ix2 j (0 : Fin 1))) (fun _ => x (ix2 (0 : Fin 1) q)) j := by
  show Ideal.tanh (broadcastTo ⟨2, ![M, N]⟩ w hw (ix2 j q) * broadcastTo ⟨2, ![M, N]⟩ x hx (ix2 j q)
      + broadcastTo ⟨2, ![M, N]⟩ b hw (ix2 j q)) = _
  rw [broadcastTo_a1_ab_apply, broadcastTo_a1_ab_apply, broadcastTo_1b_ab_apply]
  unfold layer
  rw [Fin.sum_univ_one, mul_comm]

/-- Samples along the rows: `tanh (H · W + b)` with the activations `H` of `N × K` entries, `W` of `K × M` and a bias
    vector laid along every row, read at output `j` of sample `n`, is the layer of sample `n`'s activations. -/
theorem host_layer {N K M : ℕ} (D : DotDims ⟨2, ![N, K]⟩ ⟨2, ![K, M]⟩ ⟨2, ![N, M]⟩) (hD : D = DotDims.plain N K M)
    (H : FVec Ideal ⟨2, ![N, K]⟩ .f32) (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![N, M]⟩ ![0, 1])
    (h : Fin K → EReal) (n : Fin N) (hH : ∀ k, H (ix2 n k) = h k) (j : Fin M) :
    Host.tanh (addf (Host.dotGeneral D none H W)
        (broadcastInDim ⟨2, ![N, M]⟩ ![0, 1] h2 (broadcastInDim ⟨2, ![1, M]⟩ ![1] h1 b))) (ix2 n j)
      = layer (fun k j => W (ix2 k j)) (fun j => b (ix1 j)) h j := by
  subst hD
  show Ideal.tanh (Host.dotGeneral (DotDims.plain N K M) none H W (ix2 n j)
      + broadcastInDim ⟨2, ![N, M]⟩ ![0, 1] h2 (broadcastInDim ⟨2, ![1, M]⟩ ![1] h1 b) (ix2 n j)) = _
  rw [StackMember.dotGeneral_plain_apply,
    broadcastInDim_apply ![0, 1] h2 _ (ix2 n j) (ix2 (0 : Fin 1) j) (fun ax => by
      match ax with
      | ⟨0, _⟩ => rfl
      | ⟨1, _⟩ =>
        show j.val = if M = 1 then 0 else j.val
        split
        · have := j.isLt; omega
        · rfl),
    broadcastInDim_apply ![1] h1 b (ix2 (0 : Fin 1) j) (ix1 j) (fun ax => by
      match ax with
      | ⟨0, _⟩ =>
        show j.val = if M = 1 then 0 else j.val
        split
        · have := j.isLt; omega
        · rfl)]
  unfold layer
  exact congrArg (fun s => Ideal.tanh (s + b (ix1 j))) (Finset.sum_congr rfl fun k _ => by rw [hH k])

/-- A column of `N` entries relaid as one row reads, at `(0, n)`, the column at `(n, 0)`. -/
theorem cast_row_apply {α : Type} {N : ℕ} (A : (⟨2, ![N, 1]⟩ : Shape).Idx → α)
    (h : (⟨2, ![N, 1]⟩ : Shape).ShapeCasts ⟨2, ![1, N]⟩) (n : Fin N) :
    shapeCast ⟨2, ![1, N]⟩ A h (ix2 (0 : Fin 1) n) = A (ix2 n (0 : Fin 1)) :=
  shapeCast_apply A h _ _ (by
    rw [Shape.rowMajor_val_two, Shape.rowMajor_val_two]
    show n.val * 1 + 0 = 0 * N + n.val
    omega)

/-- A vector of `M` entries relaid as a column reads, at `(j, 0)`, the vector at `j`. -/
theorem cast_col_apply {α : Type} {M : ℕ} (b : (⟨1, ![M]⟩ : Shape).Idx → α)
    (h : (⟨1, ![M]⟩ : Shape).ShapeCasts ⟨2, ![M, 1]⟩) (j : Fin M) :
    shapeCast ⟨2, ![M, 1]⟩ b h (ix2 j (0 : Fin 1)) = b (ix1 j) :=
  shapeCast_apply b h _ _ (by
    rw [Shape.rowMajor_val_one, Shape.rowMajor_val_two]
    show j.val = j.val * 1 + 0
    omega)

end Mlp

end
-- ==== Proof.Mlp.lean ====
/-
  A five-layer perceptron with tanh after every layer (widths 1 → 16 → 32 → 32 → 16 → 3) applied to scalar samples, as
  plain functions on the extended reals: at one sample (`net`), and over a whole array of `N` samples in the two
  layouts a program may keep — samples along the columns, the weights held as transposes and the biases as columns
  (`colsOf`), and samples along the rows, the arguments as given (`rows`). The two layouts hold the same numbers
  (`transpose_colsOf_eq_rows`): a transpose read at `(j, k)` is the operand at `(k, j)`, a relaid vector is the vector.
-/
import proofs.«110107_j5832565588325_2_alg».proof.Proof.LibTanhLayer

noncomputable section

namespace Mlp

open Idealize.ShloMosaic Idealize.ShloMosaic.ValueIdx

/-- The network at one sample `x`: five layers, widths 1 → 16 → 32 → 32 → 16 → 3. -/
def net (W0 : Fin 1 → Fin 16 → EReal) (b0 : Fin 16 → EReal) (W1 : Fin 16 → Fin 32 → EReal) (b1 : Fin 32 → EReal)
    (W2 : Fin 32 → Fin 32 → EReal) (b2 : Fin 32 → EReal) (W3 : Fin 32 → Fin 16 → EReal) (b3 : Fin 16 → EReal)
    (W4 : Fin 16 → Fin 3 → EReal) (b4 : Fin 3 → EReal) (x : EReal) : Fin 3 → EReal :=
  layer W4 b4 (layer W3 b3 (layer W2 b2 (layer W1 b1 (layer W0 b0 fun _ => x))))

/-! ## The network over a whole array of samples, in the two layouts -/

/-- Samples along the COLUMNS: from the row `X` of `N` samples, the weights held as transposes and the biases as
    columns, the `3 × N` array whose entry `(j, n)` is output `j` of sample `n`. -/
def colsOf {N : ℕ} (X : (⟨2, ![1, N]⟩ : Shape).Idx → EReal) (v0 : (⟨2, ![16, 1]⟩ : Shape).Idx → EReal) (v2 : (⟨2, ![16, 1]⟩ : Shape).Idx → EReal) (v4 : (⟨2, ![32, 16]⟩ : Shape).Idx → EReal) (v6 : (⟨2, ![32, 1]⟩ : Shape).Idx → EReal)
    (v8 : (⟨2, ![32, 32]⟩ : Shape).Idx → EReal) (v10 : (⟨2, ![32, 1]⟩ : Shape).Idx → EReal) (v12 : (⟨2, ![16, 32]⟩ : Shape).Idx → EReal) (v14 : (⟨2, ![16, 1]⟩ : Shape).Idx → EReal)
    (v16 : (⟨2, ![3, 16]⟩ : Shape).Idx → EReal) (v18 : (⟨2, ![3, 1]⟩ : Shape).Idx → EReal) :
    (⟨2, ![3, N]⟩ : Shape).Idx → EReal :=
  fun i => net (fun k j => v0 (ix2 j k)) (fun j => v2 (ix2 j (0 : Fin 1))) (fun k j => v4 (ix2 j k)) (fun j => v6 (ix2 j (0 : Fin 1)))
    (fun k j => v8 (ix2 j k)) (fun j => v10 (ix2 j (0 : Fin 1))) (fun k j => v12 (ix2 j k)) (fun j => v14 (ix2 j (0 : Fin 1)))
    (fun k j => v16 (ix2 j k)) (fun j => v18 (ix2 j (0 : Fin 1))) (X (ix2 (0 : Fin 1) (i 1))) (i 0)

/-- Samples along the ROWS: from the column `A0` of `N` samples, the weights and the bias vectors as given, the
    `N × 3` array whose entry `(n, j)` is output `j` of sample `n`. -/
def rows {N : ℕ} (A0 : (⟨2, ![N, 1]⟩ : Shape).Idx → EReal) (A1 : (⟨2, ![1, 16]⟩ : Shape).Idx → EReal) (A2 : (⟨1, ![16]⟩ : Shape).Idx → EReal) (A3 : (⟨2, ![16, 32]⟩ : Shape).Idx → EReal) (A4 : (⟨1, ![32]⟩ : Shape).Idx → EReal)
    (A5 : (⟨2, ![32, 32]⟩ : Shape).Idx → EReal) (A6 : (⟨1, ![32]⟩ : Shape).Idx → EReal) (A7 : (⟨2, ![32, 16]⟩ : Shape).Idx → EReal) (A8 : (⟨1, ![16]⟩ : Shape).Idx → EReal)
    (A9 : (⟨2, ![16, 3]⟩ : Shape).Idx → EReal) (A10 : (⟨1, ![3]⟩ : Shape).Idx → EReal) :
    (⟨2, ![N, 3]⟩ : Shape).Idx → EReal :=
  fun i => net (fun k j => A1 (ix2 k j)) (fun j => A2 (ix1 j)) (fun k j => A3 (ix2 k j)) (fun j => A4 (ix1 j))
    (fun k j => A5 (ix2 k j)) (fun j => A6 (ix1 j)) (fun k j => A7 (ix2 k j)) (fun j => A8 (ix1 j))
    (fun k j => A9 (ix2 k j)) (fun j => A10 (ix1 j)) (A0 (ix2 (i 0) (0 : Fin 1))) (i 1)

/-- The two layouts hold the same numbers: the column layout of the relaid samples, transposed weights and bias
    columns, transposed back, is the row layout of the arguments as given. -/
theorem transpose_colsOf_eq_rows {N : ℕ} (A0 : (⟨2, ![N, 1]⟩ : Shape).Idx → EReal) (A1 : (⟨2, ![1, 16]⟩ : Shape).Idx → EReal) (A2 : (⟨1, ![16]⟩ : Shape).Idx → EReal) (A3 : (⟨2, ![16, 32]⟩ : Shape).Idx → EReal) (A4 : (⟨1, ![32]⟩ : Shape).Idx → EReal)
    (A5 : (⟨2, ![32, 32]⟩ : Shape).Idx → EReal) (A6 : (⟨1, ![32]⟩ : Shape).Idx → EReal) (A7 : (⟨2, ![32, 16]⟩ : Shape).Idx → EReal) (A8 : (⟨1, ![16]⟩ : Shape).Idx → EReal)
    (A9 : (⟨2, ![16, 3]⟩ : Shape).Idx → EReal) (A10 : (⟨1, ![3]⟩ : Shape).Idx → EReal)
    (h0 : (⟨2, ![N, 1]⟩ : Shape).ShapeCasts ⟨2, ![1, N]⟩)
    (h1 : (⟨2, ![1, 16]⟩ : Shape).Transposes [1, 0] ⟨2, ![16, 1]⟩) (h2 : (⟨1, ![16]⟩ : Shape).ShapeCasts ⟨2, ![16, 1]⟩)
    (h3 : (⟨2, ![16, 32]⟩ : Shape).Transposes [1, 0] ⟨2, ![32, 16]⟩) (h4 : (⟨1, ![32]⟩ : Shape).ShapeCasts ⟨2, ![32, 1]⟩)
    (h5 : (⟨2, ![32, 32]⟩ : Shape).Transposes [1, 0] ⟨2, ![32, 32]⟩) (h6 : (⟨1, ![32]⟩ : Shape).ShapeCasts ⟨2, ![32, 1]⟩)
    (h7 : (⟨2, ![32, 16]⟩ : Shape).Transposes [1, 0] ⟨2, ![16, 32]⟩) (h8 : (⟨1, ![16]⟩ : Shape).ShapeCasts ⟨2, ![16, 1]⟩)
    (h9 : (⟨2, ![16, 3]⟩ : Shape).Transposes [1, 0] ⟨2, ![3, 16]⟩) (h10 : (⟨1, ![3]⟩ : Shape).ShapeCasts ⟨2, ![3, 1]⟩)
    (hT : (⟨2, ![3, N]⟩ : Shape).Transposes [1, 0] ⟨2, ![N, 3]⟩) :
    transpose ⟨2, ![N, 3]⟩ [1, 0]
      (colsOf (shapeCast ⟨2, ![1, N]⟩ A0 h0)
        (transpose ⟨2, ![16, 1]⟩ [1, 0] A1 h1) (shapeCast ⟨2, ![16, 1]⟩ A2 h2)
        (transpose ⟨2, ![32, 16]⟩ [1, 0] A3 h3) (shapeCast ⟨2, ![32, 1]⟩ A4 h4)
        (transpose ⟨2, ![32, 32]⟩ [1, 0] A5 h5) (shapeCast ⟨2, ![32, 1]⟩ A6 h6)
        (transpose ⟨2, ![16, 32]⟩ [1, 0] A7 h7) (shapeCast ⟨2, ![16, 1]⟩ A8 h8)
        (transpose ⟨2, ![3, 16]⟩ [1, 0] A9 h9) (shapeCast ⟨2, ![3, 1]⟩ A10 h10)) hT
      = rows A0 A1 A2 A3 A4 A5 A6 A7 A8 A9 A10 := by
  funext i
  obtain ⟨n, j, rfl⟩ : ∃ (n : Fin N) (j : Fin 3), i = ix2 n j := ⟨i 0, i 1, eq_ix2 i⟩
  rw [transpose_ix2_apply]
  have t1 : (fun (k : Fin 1) (j : Fin 16) => transpose ⟨2, ![16, 1]⟩ [1, 0] A1 h1 (ix2 j k)) = fun k j => A1 (ix2 k j) :=
    funext fun k => funext fun j => transpose_ix2_apply A1 h1 j k
  have t3 : (fun (k : Fin 16) (j : Fin 32) => transpose ⟨2, ![32, 16]⟩ [1, 0] A3 h3 (ix2 j k)) = fun k j => A3 (ix2 k j) :=
    funext fun k => funext fun j => transpose_ix2_apply A3 h3 j k
  have t5 : (fun (k : Fin 32) (j : Fin 32) => transpose ⟨2, ![32, 32]⟩ [1, 0] A5 h5 (ix2 j k)) = fun k j => A5 (ix2 k j) :=
    funext fun k => funext fun j => transpose_ix2_apply A5 h5 j k
  have t7 : (fun (k : Fin 32) (j : Fin 16) => transpose ⟨2, ![16, 32]⟩ [1, 0] A7 h7 (ix2 j k)) = fun k j => A7 (ix2 k j) :=
    funext fun k => funext fun j => transpose_ix2_apply A7 h7 j k
  have t9 : (fun (k : Fin 16) (j : Fin 3) => transpose ⟨2, ![3, 16]⟩ [1, 0] A9 h9 (ix2 j k)) = fun k j => A9 (ix2 k j) :=
    funext fun k => funext fun j => transpose_ix2_apply A9 h9 j k
  have c2 : (fun j : Fin 16 => shapeCast ⟨2, ![16, 1]⟩ A2 h2 (ix2 j (0 : Fin 1))) = fun j => A2 (ix1 j) :=
    funext fun j => cast_col_apply A2 h2 j
  have c4 : (fun j : Fin 32 => shapeCast ⟨2, ![32, 1]⟩ A4 h4 (ix2 j (0 : Fin 1))) = fun j => A4 (ix1 j) :=
    funext fun j => cast_col_apply A4 h4 j
  have c6 : (fun j : Fin 32 => shapeCast ⟨2, ![32, 1]⟩ A6 h6 (ix2 j (0 : Fin 1))) = fun j => A6 (ix1 j) :=
    funext fun j => cast_col_apply A6 h6 j
  have c8 : (fun j : Fin 16 => shapeCast ⟨2, ![16, 1]⟩ A8 h8 (ix2 j (0 : Fin 1))) = fun j => A8 (ix1 j) :=
    funext fun j => cast_col_apply A8 h8 j
  have c10 : (fun j : Fin 3 => shapeCast ⟨2, ![3, 1]⟩ A10 h10 (ix2 j (0 : Fin 1))) = fun j => A10 (ix1 j) :=
    funext fun j => cast_col_apply A10 h10 j
  show net (fun k j => transpose ⟨2, ![16, 1]⟩ [1, 0] A1 h1 (ix2 j k)) (fun j => shapeCast ⟨2, ![16, 1]⟩ A2 h2 (ix2 j (0 : Fin 1)))
      (fun k j => transpose ⟨2, ![32, 16]⟩ [1, 0] A3 h3 (ix2 j k)) (fun j => shapeCast ⟨2, ![32, 1]⟩ A4 h4 (ix2 j (0 : Fin 1)))
      (fun k j => transpose ⟨2, ![32, 32]⟩ [1, 0] A5 h5 (ix2 j k)) (fun j => shapeCast ⟨2, ![32, 1]⟩ A6 h6 (ix2 j (0 : Fin 1)))
      (fun k j => transpose ⟨2, ![16, 32]⟩ [1, 0] A7 h7 (ix2 j k)) (fun j => shapeCast ⟨2, ![16, 1]⟩ A8 h8 (ix2 j (0 : Fin 1)))
      (fun k j => transpose ⟨2, ![3, 16]⟩ [1, 0] A9 h9 (ix2 j k)) (fun j => shapeCast ⟨2, ![3, 1]⟩ A10 h10 (ix2 j (0 : Fin 1)))
      (shapeCast ⟨2, ![1, N]⟩ A0 h0 (ix2 (0 : Fin 1) n)) j
    = net (fun k j => A1 (ix2 k j)) (fun j => A2 (ix1 j)) (fun k j => A3 (ix2 k j)) (fun j => A4 (ix1 j))
      (fun k j => A5 (ix2 k j)) (fun j => A6 (ix1 j)) (fun k j => A7 (ix2 k j)) (fun j => A8 (ix1 j))
      (fun k j => A9 (ix2 k j)) (fun j => A10 (ix1 j)) (A0 (ix2 n (0 : Fin 1))) j
  rw [t1, t3, t5, t7, t9, c2, c4, c6, c8, c10, cast_row_apply]

end Mlp

end
-- ==== Proof.Payload.lean ====
/-
  What one pass of the kernel body stores, read at an entry: for a chunk of 8192 samples laid along the columns, output
  `j` of sample `q` is the network of that sample, with the weights the body holds as transposes and the biases it holds
  as columns.
-/
import proofs.«110107_j5832565588325_2_alg».proof.Proof.Gen.KernelIdeal.Skeleton
import proofs.«110107_j5832565588325_2_alg».proof.Proof.Mlp

noncomputable section

namespace Cert.KernelIdeal.MlpValue

open Cert.KernelIdeal Cert.KernelIdeal.Gen
open Idealize.ShloMosaic Idealize.ShloMosaic.ValueIdx

/-- The stored value at `(j, q)`: the five layers at sample `q` of the chunk, each read by its spelling — the first a
    product of two broadcasts, the other four a matrix product into zero plus a bias column. -/
theorem pay_apply (v0 : Vec Ideal S16x1 .f32) (v2 : Vec Ideal S16x1 .f32) (v4 : Vec Ideal S32x16 .f32) (v6 : Vec Ideal S32x1 .f32)
    (v8 : Vec Ideal S32x32 .f32) (v10 : Vec Ideal S32x1 .f32) (v12 : Vec Ideal S16x32 .f32) (v14 : Vec Ideal S16x1 .f32)
    (v16 : Vec Ideal S3x16 .f32) (v18 : Vec Ideal S3x1 .f32) (v26 : Vec Ideal S1x8192 .f32) (j : Fin 3) (q : Fin 8192) :
    k0_pay1 (F := Ideal) v0 v2 v4 v6 v8 v10 v12 v14 v16 v18 v26 (ix2 j q)
      = Mlp.net (fun k j => v0 (ix2 j k)) (fun j => v2 (ix2 j (0 : Fin 1))) (fun k j => v4 (ix2 j k)) (fun j => v6 (ix2 j (0 : Fin 1)))
          (fun k j => v8 (ix2 j k)) (fun j => v10 (ix2 j (0 : Fin 1))) (fun k j => v12 (ix2 j k)) (fun j => v14 (ix2 j (0 : Fin 1)))
          (fun k j => v16 (ix2 j k)) (fun j => v18 (ix2 j (0 : Fin 1))) (v26 (ix2 (0 : Fin 1) q)) j := by
  unfold k0_pay1 Mlp.net
  simp only [shapeCast_self]
  exact Mlp.unit_layer (M := 3) (K := 16) (N := 8192) _ rfl v16 _ v18 _ _ q (fun k =>
    Mlp.unit_layer (M := 16) (K := 32) (N := 8192) _ rfl v12 _ v14 _ _ q (fun k =>
      Mlp.unit_layer (M := 32) (K := 32) (N := 8192) _ rfl v8 _ v10 _ _ q (fun k =>
        Mlp.unit_layer (M := 32) (K := 16) (N := 8192) _ rfl v4 _ v6 _ _ q (fun k =>
          Mlp.unit_first (M := 16) (N := 8192) v0 v2 v26 _ _ k q) k) k) k) j

end Cert.KernelIdeal.MlpValue

end
-- ==== Proof.Block.lean ====
/-
  What the kernel body leaves in the output's staging buffer at one grid point: a block of 3 × 65536 entries, entry
  `(j, p)` the network's output `j` at the sample in lane `p` of the staged row of inputs.

  The body fills the block in eight passes of a counted loop; pass `k` reads lanes `8192·k … 8192·k + 8191` of the
  input row and stores the network of those samples into the same lanes of the output. So every stored piece is a
  block of ONE function of the buffer's index (`blockOf`), and the eight pieces tile the buffer: read back, the buffer
  holds that function.
-/
import proofs.«110107_j5832565588325_2_alg».proof.Proof.Gen.KernelIdeal.Frame
import proofs.«110107_j5832565588325_2_alg».proof.Proof.Payload
import Idealize.ShloMosaic.Lib.Pipeline.Value

noncomputable section

namespace Cert.KernelIdeal.MlpValue

open Cert.KernelIdeal Cert.KernelIdeal.Gen
open Idealize.ShloMosaic Idealize.ShloMosaic.TcCoe Idealize.ShloMosaic.ValueIdx Idealize.SL.Sem

/-- The output block as a function of the staged blocks: entry `(j, p)` is the network at the sample in lane `p` of the
    input row `xrow`, the weights read as transposes (`v0`, `v4`, `v8`, `v12`, `v16`) and the biases as columns. -/
def blockOf (xrow : Vec Ideal S1x65536 .f32) (v0 : Vec Ideal S16x1 .f32) (v2 : Vec Ideal S16x1 .f32) (v4 : Vec Ideal S32x16 .f32) (v6 : Vec Ideal S32x1 .f32) (v8 : Vec Ideal S32x32 .f32) (v10 : Vec Ideal S32x1 .f32) (v12 : Vec Ideal S16x32 .f32) (v14 : Vec Ideal S16x1 .f32) (v16 : Vec Ideal S3x16 .f32) (v18 : Vec Ideal S3x1 .f32) : Vec Ideal S3x65536 .f32 :=
  fun y => Mlp.net (fun k j => v0 (ix2 j k)) (fun j => v2 (ix2 j (0 : Fin 1))) (fun k j => v4 (ix2 j k)) (fun j => v6 (ix2 j (0 : Fin 1)))
    (fun k j => v8 (ix2 j k)) (fun j => v10 (ix2 j (0 : Fin 1))) (fun k j => v12 (ix2 j k)) (fun j => v14 (ix2 j (0 : Fin 1)))
    (fun k j => v16 (ix2 j k)) (fun j => v18 (ix2 j (0 : Fin 1))) (xrow (ix2 (0 : Fin 1) (y 1))) (y 0)

theorem trips_le (k : Fin k0_t1_loop.trips) : k.val < 8 := Nat.lt_of_lt_of_le k.isLt k0_t1_abs.2.1

/-- Pass `k` stores at lanes `8192·k + q` of the output block, -/
theorem emb_out (k : Fin k0_t1_loop.trips) (j : Fin 3) (q : Fin 8192) (hq : 8192 * k.val + q.val < 65536) :
    (Rect.unit (s := S3x65536) (k0_off2 k) S3x8192.size (k0_off2_inb k)).emb (ix2 j q)
      = ix2 j (⟨8192 * k.val + q.val, hq⟩ : Fin 65536) := by
  funext a; apply Fin.ext
  rw [Rect.emb_apply]
  match a with
  | ⟨0, _⟩ => show (k0_off2 k) 0 + 1 * j.val = j.val; rw [k0_off2_eq]; show 0 + 1 * j.val = j.val; omega
  | ⟨1, _⟩ => show (k0_off2 k) 1 + 1 * q.val = 8192 * k.val + q.val; rw [k0_off2_eq]; show 8192 * k.val + 1 * q.val = _; omega

/-- and loads the same lanes of the input row. -/
theorem emb_in (k : Fin k0_t1_loop.trips) (q : Fin 8192) (hq : 8192 * k.val + q.val < 65536) :
    (Rect.unit (s := S1x65536) (k0_off1 k) S1x8192.size (k0_off1_inb k)).emb (ix2 (0 : Fin 1) q)
      = ix2 (0 : Fin 1) (⟨8192 * k.val + q.val, hq⟩ : Fin 65536) := by
  funext a; apply Fin.ext
  rw [Rect.emb_apply]
  match a with
  | ⟨0, _⟩ => show (k0_off1 k) 0 + 1 * 0 = 0; rw [k0_off1_eq]; rfl
  | ⟨1, _⟩ => show (k0_off1 k) 1 + 1 * q.val = 8192 * k.val + q.val; rw [k0_off1_eq]; show 8192 * k.val + 1 * q.val = _; omega

/-- The value pass `k` stores is its block of `blockOf`. -/
theorem piece_good (xrow : Vec Ideal S1x65536 .f32) (v0 : Vec Ideal S16x1 .f32) (v2 : Vec Ideal S16x1 .f32) (v4 : Vec Ideal S32x16 .f32) (v6 : Vec Ideal S32x1 .f32) (v8 : Vec Ideal S32x32 .f32) (v10 : Vec Ideal S32x1 .f32) (v12 : Vec Ideal S16x32 .f32) (v14 : Vec Ideal S16x1 .f32) (v16 : Vec Ideal S3x16 .f32) (v18 : Vec Ideal S3x1 .f32) (k : Fin k0_t1_loop.trips)
    (x : (Rect.unit (s := S3x65536) (k0_off2 k) S3x8192.size (k0_off2_inb k)).shape.Idx) :
    k0_pay1 (F := Ideal) v0 v2 v4 v6 v8 v10 v12 v14 v16 v18 (View.ld xrow (Rect.unit (s := S1x65536) (k0_off1 k) S1x8192.size (k0_off1_inb k))) x
      = blockOf xrow v0 v2 v4 v6 v8 v10 v12 v14 v16 v18 ((Rect.unit (s := S3x65536) (k0_off2 k) S3x8192.size (k0_off2_inb k)).emb x) := by
  have hk := trips_le k
  obtain ⟨j, q, rfl⟩ : ∃ (j : Fin 3) (q : Fin 8192), x = ix2 j q := ⟨x 0, x 1, eq_ix2 x⟩
  have hq : 8192 * k.val + q.val < 65536 := by have := q.isLt; omega
  rw [emb_out k j q hq]
  refine (pay_apply v0 v2 v4 v6 v8 v10 v12 v14 v16 v18 _ j q).trans ?_
  show Mlp.net _ _ _ _ _ _ _ _ _ _ (xrow ((Rect.unit (s := S1x65536) (k0_off1 k) S1x8192.size (k0_off1_inb k)).emb (ix2 (0 : Fin 1) q))) j
    = Mlp.net _ _ _ _ _ _ _ _ _ _ (xrow (ix2 (0 : Fin 1) (⟨8192 * k.val + q.val, hq⟩ : Fin 65536))) j
  rw [emb_in k q hq]

/-- The one piece pass `k` of the loop writes: a store, at the pass's lanes, of the stored value of the pass's load. -/
theorem tripL_eq (𝒱 : Variants) (bd : Option 𝒱.V) (c : Dev nD) (i : grid0.Coords) (arg1 : Memref sig .tc .vmem S1x65536 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S32x16 .f32) (harg4 : arg4.IsWhole) (arg5 : Memref sig .tc .vmem S32x1 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S16x32 .f32) (harg8 : arg8.IsWhole) (arg9 : Memref sig .tc .vmem S16x1 .f32) (harg9 : arg9.IsWhole) (arg10 : Memref sig .tc .vmem S3x16 .f32) (harg10 : arg10.IsWhole) (arg11 : Memref sig .tc .vmem S3x1 .f32) (harg11 : arg11.IsWhole) (arg12 : Memref sig .tc .vmem S3x65536 .f32) (harg12 : arg12.IsWhole) (v0 : Vec Ideal S16x1 .f32) (v2 : Vec Ideal S16x1 .f32) (v4 : Vec Ideal S32x16 .f32) (v6 : Vec Ideal S32x1 .f32) (v8 : Vec Ideal S32x32 .f32) (v10 : Vec Ideal S32x1 .f32) (v12 : Vec Ideal S16x32 .f32) (v14 : Vec Ideal S16x1 .f32) (v16 : Vec Ideal S3x16 .f32) (v18 : Vec Ideal S3x1 .f32)
    (X : BufTy.Contents (Elt Ideal) arg1.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v2 v4 v6 v8 v10 v12 v14 v16 v18 X k
      = [⟨Rect.unit (s := S3x65536) (k0_off2 k) S3x8192.size (k0_off2_inb k),
          k0_pay1 v0 v2 v4 v6 v8 v10 v12 v14 v16 v18 (View.ld (arg1.view.read (Elt Ideal) X) (Rect.unit (s := S1x65536) (k0_off1 k) S1x8192.size (k0_off1_inb k)))⟩] := by
  unfold tripL_k0_t1 trip_k0_t1
  rfl

/-- Every piece the passes before the `n`-th wrote is a block of `blockOf`. -/
theorem pb_good (𝒱 : Variants) (bd : Option 𝒱.V) (c : Dev nD) (i : grid0.Coords) (arg1 : Memref sig .tc .vmem S1x65536 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S32x16 .f32) (harg4 : arg4.IsWhole) (arg5 : Memref sig .tc .vmem S32x1 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S16x32 .f32) (harg8 : arg8.IsWhole) (arg9 : Memref sig .tc .vmem S16x1 .f32) (harg9 : arg9.IsWhole) (arg10 : Memref sig .tc .vmem S3x16 .f32) (harg10 : arg10.IsWhole) (arg11 : Memref sig .tc .vmem S3x1 .f32) (harg11 : arg11.IsWhole) (arg12 : Memref sig .tc .vmem S3x65536 .f32) (harg12 : arg12.IsWhole) (v0 : Vec Ideal S16x1 .f32) (v2 : Vec Ideal S16x1 .f32) (v4 : Vec Ideal S32x16 .f32) (v6 : Vec Ideal S32x1 .f32) (v8 : Vec Ideal S32x32 .f32) (v10 : Vec Ideal S32x1 .f32) (v12 : Vec Ideal S16x32 .f32) (v14 : Vec Ideal S16x1 .f32) (v16 : Vec Ideal S3x16 .f32) (v18 : Vec Ideal S3x1 .f32)
    (X : BufTy.Contents (Elt Ideal) arg1.view.ty) :
    ∀ (n : ℕ), ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v2 v4 v6 v8 v10 v12 v14 v16 v18 X n,
      ∀ x : p.1.shape.Idx, p.2 x = blockOf (arg1.view.read (Elt Ideal) X) v0 v2 v4 v6 v8 v10 v12 v14 v16 v18 (p.1.emb x)
  | 0 => fun p hp => by rw [pb_k0_t1.eq_1] at hp; exact absurd hp List.not_mem_nil
  | n + 1 => fun p hp => by
    rw [pb_k0_t1.eq_2] at hp
    unfold pb_k0_t1Step at hp
    split at hp
    · rename_i hn
      rcases List.mem_append.mp hp with h | h
      · rw [tripL_eq] at h
        obtain rfl := List.mem_singleton.mp h
        exact fun x => piece_good _ v0 v2 v4 v6 v8 v10 v12 v14 v16 v18 ⟨n, hn⟩ x
      · exact pb_good 𝒱 bd c i arg1 harg1 arg2 harg2 arg3 harg3 arg4 harg4 arg5 harg5 arg6 harg6 arg7 harg7 arg8 harg8 arg9 harg9 arg10 harg10 arg11 harg11 arg12 harg12 v0 v2 v4 v6 v8 v10 v12 v14 v16 v18 X n p h
    · exact pb_good 𝒱 bd c i arg1 harg1 arg2 harg2 arg3 harg3 arg4 harg4 arg5 harg5 arg6 harg6 arg7 harg7 arg8 harg8 arg9 harg9 arg10 harg10 arg11 harg11 arg12 harg12 v0 v2 v4 v6 v8 v10 v12 v14 v16 v18 X n p hp

theorem hz : (![0, 0] : Fin 2 → Nat) = fun _ => 0 := funext fun a => by fin_cases a <;> rfl

/-- What the body leaves in the output's staging buffer: `blockOf` of the staged input blocks. -/
theorem out_eq (c : Dev nD) (i : grid0.Coords) (arg1 : Memref sig .tc .vmem S1x65536 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S32x16 .f32) (harg4 : arg4.IsWhole) (arg5 : Memref sig .tc .vmem S32x1 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S16x32 .f32) (harg8 : arg8.IsWhole) (arg9 : Memref sig .tc .vmem S16x1 .f32) (harg9 : arg9.IsWhole) (arg10 : Memref sig .tc .vmem S3x16 .f32) (harg10 : arg10.IsWhole) (arg11 : Memref sig .tc .vmem S3x1 .f32) (harg11 : arg11.IsWhole) (arg12 : Memref sig .tc .vmem S3x65536 .f32) (harg12 : arg12.IsWhole) (x0 : Vec Ideal S1x65536 .f32) (x1 : Vec Ideal S16x1 .f32) (x2 : Vec Ideal S16x1 .f32) (x3 : Vec Ideal S32x16 .f32) (x4 : Vec Ideal S32x1 .f32) (x5 : Vec Ideal S32x32 .f32) (x6 : Vec Ideal S32x1 .f32) (x7 : Vec Ideal S16x32 .f32) (x8 : Vec Ideal S16x1 .f32) (x9 : Vec Ideal S3x16 .f32) (x10 : Vec Ideal S3x1 .f32) :
    out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 = blockOf x0 x1 x2 x3 x4 x5 x6 x7 x8 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  funext y
  have hL : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1
      = pb_k0_t1 (F := Ideal) Variants.none c none i arg1 harg1 arg2 harg2 arg3 harg3 arg4 harg4 arg5 harg5 arg6 harg6 arg7 harg7 arg8 harg8 arg9 harg9 arg10 harg10 arg11 harg11 arg12 harg12
          (View.readAt (Elt Ideal) arg2.view (Rect.unit (s := S16x1) ![0, 0] S16x1.size inb_S16x1_S16x1_0_0).toLoadRect (harg2.unread x1))
          (View.readAt (Elt Ideal) arg3.view (Rect.unit (s := S16x1) ![0, 0] S16x1.size inb_S16x1_S16x1_0_0).toLoadRect (harg3.unread x2))
          (View.readAt (Elt Ideal) arg4.view (Rect.unit (s := S32x16) ![0, 0] S32x16.size inb_S32x16_S32x16_0_0).toLoadRect (harg4.unread x3))
          (View.readAt (Elt Ideal) arg5.view (Rect.unit (s := S32x1) ![0, 0] S32x1.size inb_S32x1_S32x1_0_0).toLoadRect (harg5.unread x4))
          (View.readAt (Elt Ideal) arg6.view (Rect.unit (s := S32x32) ![0, 0] S32x32.size inb_S32x32_S32x32_0_0).toLoadRect (harg6.unread x5))
          (View.readAt (Elt Ideal) arg7.view (Rect.unit (s := S32x1) ![0, 0] S32x1.size inb_S32x1_S32x1_0_0).toLoadRect (harg7.unread x6))
          (View.readAt (Elt Ideal) arg8.view (Rect.unit (s := S16x32) ![0, 0] S16x32.size inb_S16x32_S16x32_0_0).toLoadRect (harg8.unread x7))
          (View.readAt (Elt Ideal) arg9.view (Rect.unit (s := S16x1) ![0, 0] S16x1.size inb_S16x1_S16x1_0_0).toLoadRect (harg9.unread x8))
          (View.readAt (Elt Ideal) arg10.view (Rect.unit (s := S3x16) ![0, 0] S3x16.size inb_S3x16_S3x16_0_0).toLoadRect (harg10.unread x9))
          (View.readAt (Elt Ideal) arg11.view (Rect.unit (s := S3x1) ![0, 0] S3x1.size inb_S3x1_S3x1_0_0).toLoadRect (harg11.unread x10))
          (harg1.unread x0) k0_t1_loop.trips := by
    unfold kernelRun0_A
    rfl
  refine (View.canon_apply_of_pieces _ _ (by rw [hL]; exact pb_good _ _ c i arg1 harg1 arg2 harg2 arg3 harg3 arg4 harg4 arg5 harg5 arg6 harg6 arg7 harg7 arg8 harg8 arg9 harg9 arg10 harg10 arg11 harg11 arg12 harg12 _ _ _ _ _ _ _ _ _ _ _ _) y
    (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 y)).trans ?_
  simp only [View.readAt_eq_ld, harg1.read_unread, harg2.read_unread, harg3.read_unread, harg4.read_unread, harg5.read_unread,
    harg6.read_unread, harg7.read_unread, harg8.read_unread, harg9.read_unread, harg10.read_unread, harg11.read_unread,
    View.ld_unit_zero (S := S16x1) hz, View.ld_unit_zero (S := S32x16) hz, View.ld_unit_zero (S := S32x1) hz,
    View.ld_unit_zero (S := S32x32) hz, View.ld_unit_zero (S := S16x32) hz, View.ld_unit_zero (S := S3x16) hz,
    View.ld_unit_zero (S := S3x1) hz]

end Cert.KernelIdeal.MlpValue

end
-- ==== Proof.Array.lean ====
/-
  From the blocks to the arrays. The grid has 64 points; point `t` stages lanes `65536·t … 65536·t + 65535` of the row of
  samples and writes back the same lanes of the 3 × 4194304 output, while the ten weight and bias arrays are staged whole
  at every point. Block `t` of what the body leaves is therefore block `t` of one array — the column layout `Mlp.colsOf`
  of the arrays the region finds —, the 64 blocks tile the output, and the output ends holding that array. The region
  finds the samples relaid as one row, the weights transposed and the biases as columns; the line after the region
  transposes the output: together, the row layout `Mlp.rows` of the arguments.
-/
import proofs.«110107_j5832565588325_2_alg».proof.Proof.Block
import Idealize.ShloMosaic.Lib.Pipeline.Value
import Idealize.ShloMosaic.Lib.StableHlo.Run
import Idealize.ShloMosaic.Lib.ValueLayout

noncomputable section

namespace Cert.KernelIdeal.MlpValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where each window's block sits, decided over the grid -/

/-- The row of samples moves one block along the lanes per point, -/
theorem idx_x : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
/-- and the output with it. -/
theorem idx_o : ∀ t : Fin cfg0.N, win0_11.index t (0 : Fin 2) = 0 ∧ win0_11.index t (1 : Fin 2) = t.val :=
  (by decide +kernel : ∀ t : Fin grid0.N, win0_11.index t (0 : Fin 2) = 0 ∧ win0_11.index t (1 : Fin 2) = t.val)
/-- Window 1's block never moves. -/
theorem idx_w1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- Window 2's block never moves. -/
theorem idx_w2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- Window 3's block never moves. -/
theorem idx_w3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 4's block never moves. -/
theorem idx_w4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Window 5's block never moves. -/
theorem idx_w5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 6's block never moves. -/
theorem idx_w6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 7's block never moves. -/
theorem idx_w7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Window 8's block never moves. -/
theorem idx_w8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- Window 9's block never moves. -/
theorem idx_w9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
/-- Window 10's block never moves. -/
theorem idx_w10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

theorem N_eq : cfg0.N = 64 := N_0

/-! ## The staged blocks read off the arrays -/

/-- Window 1's block is its whole array at every point. -/
theorem iblk1_eq (c : Dev nD) (t : Fin cfg0.N) : (iblk m c 1 t : Vec Ideal S16x1 .f32) = V m c main_v1 := by
  funext y
  show V m c main_v1 (((cfg0.win 1).blk t).view.emb y) = V m c main_v1 y
  refine congrArg (V m c main_v1) (funext fun a => Fin.ext ?_)
  obtain ⟨e0, e1⟩ := idx_w1 t
  match a with
  | ⟨0, _⟩ => show win0_1.index t (0 : Fin 2) * 16 + 1 * (y 0).val = (y 0).val; rw [e0]; omega
  | ⟨1, _⟩ => show win0_1.index t (1 : Fin 2) * 1 + 1 * (y 1).val = (y 1).val; rw [e1]; omega
/-- Window 2's block is its whole array at every point. -/
theorem iblk2_eq (c : Dev nD) (t : Fin cfg0.N) : (iblk m c 2 t : Vec Ideal S16x1 .f32) = V m c main_v6 := by
  funext y
  show V m c main_v6 (((cfg0.win 2).blk t).view.emb y) = V m c main_v6 y
  refine congrArg (V m c main_v6) (funext fun a => Fin.ext ?_)
  obtain ⟨e0, e1⟩ := idx_w2 t
  match a with
  | ⟨0, _⟩ => show win0_2.index t (0 : Fin 2) * 16 + 1 * (y 0).val = (y 0).val; rw [e0]; omega
  | ⟨1, _⟩ => show win0_2.index t (1 : Fin 2) * 1 + 1 * (y 1).val = (y 1).val; rw [e1]; omega
/-- Window 3's block is its whole array at every point. -/
theorem iblk3_eq (c : Dev nD) (t : Fin cfg0.N) : (iblk m c 3 t : Vec Ideal S32x16 .f32) = V m c main_v2 := by
  funext y
  show V m c main_v2 (((cfg0.win 3).blk t).view.emb y) = V m c main_v2 y
  refine congrArg (V m c main_v2) (funext fun a => Fin.ext ?_)
  obtain ⟨e0, e1⟩ := idx_w3 t
  match a with
  | ⟨0, _⟩ => show win0_3.index t (0 : Fin 2) * 32 + 1 * (y 0).val = (y 0).val; rw [e0]; omega
  | ⟨1, _⟩ => show win0_3.index t (1 : Fin 2) * 16 + 1 * (y 1).val = (y 1).val; rw [e1]; omega
/-- Window 4's block is its whole array at every point. -/
theorem iblk4_eq (c : Dev nD) (t : Fin cfg0.N) : (iblk m c 4 t : Vec Ideal S32x1 .f32) = V m c main_v7 := by
  funext y
  show V m c main_v7 (((cfg0.win 4).blk t).view.emb y) = V m c main_v7 y
  refine congrArg (V m c main_v7) (funext fun a => Fin.ext ?_)
  obtain ⟨e0, e1⟩ := idx_w4 t
  match a with
  | ⟨0, _⟩ => show win0_4.index t (0 : Fin 2) * 32 + 1 * (y 0).val = (y 0).val; rw [e0]; omega
  | ⟨1, _⟩ => show win0_4.index t (1 : Fin 2) * 1 + 1 * (y 1).val = (y 1).val; rw [e1]; omega
/-- Window 5's block is its whole array at every point. -/
theorem iblk5_eq (c : Dev nD) (t : Fin cfg0.N) : (iblk m c 5 t : Vec Ideal S32x32 .f32) = V m c main_v3 := by
  funext y
  show V m c main_v3 (((cfg0.win 5).blk t).view.emb y) = V m c main_v3 y
  refine congrArg (V m c main_v3) (funext fun a => Fin.ext ?_)
  obtain ⟨e0, e1⟩ := idx_w5 t
  match a with
  | ⟨0, _⟩ => show win0_5.index t (0 : Fin 2) * 32 + 1 * (y 0).val = (y 0).val; rw [e0]; omega
  | ⟨1, _⟩ => show win0_5.index t (1 : Fin 2) * 32 + 1 * (y 1).val = (y 1).val; rw [e1]; omega
/-- Window 6's block is its whole array at every point. -/
theorem iblk6_eq (c : Dev nD) (t : Fin cfg0.N) : (iblk m c 6 t : Vec Ideal S32x1 .f32) = V m c main_v8 := by
  funext y
  show V m c main_v8 (((cfg0.win 6).blk t).view.emb y) = V m c main_v8 y
  refine congrArg (V m c main_v8) (funext fun a => Fin.ext ?_)
  obtain ⟨e0, e1⟩ := idx_w6 t
  match a with
  | ⟨0, _⟩ => show win0_6.index t (0 : Fin 2) * 32 + 1 * (y 0).val = (y 0).val; rw [e0]; omega
  | ⟨1, _⟩ => show win0_6.index t (1 : Fin 2) * 1 + 1 * (y 1).val = (y 1).val; rw [e1]; omega
/-- Window 7's block is its whole array at every point. -/
theorem iblk7_eq (c : Dev nD) (t : Fin cfg0.N) : (iblk m c 7 t : Vec Ideal S16x32 .f32) = V m c main_v4 := by
  funext y
  show V m c main_v4 (((cfg0.win 7).blk t).view.emb y) = V m c main_v4 y
  refine congrArg (V m c main_v4) (funext fun a => Fin.ext ?_)
  obtain ⟨e0, e1⟩ := idx_w7 t
  match a with
  | ⟨0, _⟩ => show win0_7.index t (0 : Fin 2) * 16 + 1 * (y 0).val = (y 0).val; rw [e0]; omega
  | ⟨1, _⟩ => show win0_7.index t (1 : Fin 2) * 32 + 1 * (y 1).val = (y 1).val; rw [e1]; omega
/-- Window 8's block is its whole array at every point. -/
theorem iblk8_eq (c : Dev nD) (t : Fin cfg0.N) : (iblk m c 8 t : Vec Ideal S16x1 .f32) = V m c main_v9 := by
  funext y
  show V m c main_v9 (((cfg0.win 8).blk t).view.emb y) = V m c main_v9 y
  refine congrArg (V m c main_v9) (funext fun a => Fin.ext ?_)
  obtain ⟨e0, e1⟩ := idx_w8 t
  match a with
  | ⟨0, _⟩ => show win0_8.index t (0 : Fin 2) * 16 + 1 * (y 0).val = (y 0).val; rw [e0]; omega
  | ⟨1, _⟩ => show win0_8.index t (1 : Fin 2) * 1 + 1 * (y 1).val = (y 1).val; rw [e1]; omega
/-- Window 9's block is its whole array at every point. -/
theorem iblk9_eq (c : Dev nD) (t : Fin cfg0.N) : (iblk m c 9 t : Vec Ideal S3x16 .f32) = V m c main_v5 := by
  funext y
  show V m c main_v5 (((cfg0.win 9).blk t).view.emb y) = V m c main_v5 y
  refine congrArg (V m c main_v5) (funext fun a => Fin.ext ?_)
  obtain ⟨e0, e1⟩ := idx_w9 t
  match a with
  | ⟨0, _⟩ => show win0_9.index t (0 : Fin 2) * 3 + 1 * (y 0).val = (y 0).val; rw [e0]; omega
  | ⟨1, _⟩ => show win0_9.index t (1 : Fin 2) * 16 + 1 * (y 1).val = (y 1).val; rw [e1]; omega
/-- Window 10's block is its whole array at every point. -/
theorem iblk10_eq (c : Dev nD) (t : Fin cfg0.N) : (iblk m c 10 t : Vec Ideal S3x1 .f32) = V m c main_v10 := by
  funext y
  show V m c main_v10 (((cfg0.win 10).blk t).view.emb y) = V m c main_v10 y
  refine congrArg (V m c main_v10) (funext fun a => Fin.ext ?_)
  obtain ⟨e0, e1⟩ := idx_w10 t
  match a with
  | ⟨0, _⟩ => show win0_10.index t (0 : Fin 2) * 3 + 1 * (y 0).val = (y 0).val; rw [e0]; omega
  | ⟨1, _⟩ => show win0_10.index t (1 : Fin 2) * 1 + 1 * (y 1).val = (y 1).val; rw [e1]; omega

/-- Lane `p` of the samples' block at point `t` is lane `65536·t + p` of the row of samples. -/
theorem iblk0_apply (c : Dev nD) (t : Fin cfg0.N) (p : Fin 65536) (hp : 65536 * t.val + p.val < 4194304) :
    (iblk m c 0 t : Vec Ideal S1x65536 .f32) (ix2 (0 : Fin 1) p)
      = V m c main_v0 (ix2 (0 : Fin 1) (⟨65536 * t.val + p.val, hp⟩ : Fin 4194304)) := by
  show V m c main_v0 (((cfg0.win 0).blk t).view.emb (ix2 (0 : Fin 1) p)) = _
  refine congrArg (V m c main_v0) (funext fun a => Fin.ext ?_)
  obtain ⟨e0, e1⟩ := idx_x t
  match a with
  | ⟨0, _⟩ => show win0_0.index t (0 : Fin 2) * 1 + 1 * 0 = 0; rw [e0]
  | ⟨1, _⟩ => show win0_0.index t (1 : Fin 2) * 65536 + 1 * p.val = 65536 * t.val + p.val; rw [e1]; omega

/-- Entry `(j, p)` of the output's block at point `t` sits at `(j, 65536·t + p)` of the output array. -/
theorem emb_o (t : Fin cfg0.N) (y : ((cfg0.win 11).xblock (cfg0.grid.coords t)).Idx)
    (hp : 65536 * t.val + (y 1).val < 4194304) :
    ((cfg0.win 11).blk t).view.emb y = ix2 (y 0) (⟨65536 * t.val + (y 1).val, hp⟩ : Fin 4194304) := by
  funext a; apply Fin.ext
  obtain ⟨e0, e1⟩ := idx_o t
  match a with
  | ⟨0, _⟩ => show win0_11.index t (0 : Fin 2) * 3 + 1 * (y 0).val = (y 0).val; rw [e0]; omega
  | ⟨1, _⟩ => show win0_11.index t (1 : Fin 2) * 65536 + 1 * (y 1).val = 65536 * t.val + (y 1).val; rw [e1]; omega

/-! ## What point `t` writes back, and the output array after the region -/

/-- The output array as the region leaves it, in terms of the arrays the region finds. -/
abbrev colsV (c : Dev nD) : Buf (Elt Ideal) ((c : Thread nD τ).loc main_v11) :=
  Mlp.colsOf (N := 4194304) (V m c main_v0) (V m c main_v1) (V m c main_v6) (V m c main_v2) (V m c main_v7) (V m c main_v3) (V m c main_v8) (V m c main_v4) (V m c main_v9) (V m c main_v5) (V m c main_v10)

/-- Point `t` writes back block `t` of `colsV`. -/
theorem flushed_eq (c : Dev nD) (t : Fin cfg0.N) :
    (dats m 0 c).flushed 11 t = ((cfg0.win 11).blk t).view.read (Elt Ideal) (colsV m c) := by
  show (cfg0.win 11).cut (grid0.coords t) ((dats m 0 c).after 11 t) = _
  rw [after0_11]
  unfold outsAt0
  have h1 := out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
  rw [h1, iblk1_eq, iblk2_eq, iblk3_eq, iblk4_eq, iblk5_eq, iblk6_eq, iblk7_eq, iblk8_eq, iblk9_eq, iblk10_eq]
  funext y
  have ht : t.val < 64 := Nat.lt_of_lt_of_le t.isLt (le_of_eq N_eq)
  have hy : (y 1).val < 65536 := (y 1).isLt
  have hp : 65536 * t.val + (y 1).val < 4194304 := by omega
  show blockOf (iblk m c 0 t) (V m c main_v1) (V m c main_v6) (V m c main_v2) (V m c main_v7) (V m c main_v3) (V m c main_v8) (V m c main_v4) (V m c main_v9) (V m c main_v5) (V m c main_v10) y
    = colsV m c (((cfg0.win 11).blk t).view.emb y)
  rw [emb_o t y hp]
  show Mlp.net _ _ _ _ _ _ _ _ _ _ ((iblk m c 0 t : Vec Ideal S1x65536 .f32) (ix2 (0 : Fin 1) (y 1))) (y 0)
    = Mlp.net _ _ _ _ _ _ _ _ _ _ (V m c main_v0 (ix2 (0 : Fin 1) (⟨65536 * t.val + (y 1).val, hp⟩ : Fin 4194304))) (y 0)
  rw [iblk0_apply m c t (y 1) hp]

/-- An index of the output array is in point `t`'s block iff each coordinate is in the block's range on its axis. -/
theorem mem_blk (t : Fin cfg0.N) (i : S3x4194304.Idx) :
    i ∈ ((cfg0.win 11).blk t).view.set ↔ ∀ a : Fin 2, win0_11.index t a * S3x65536.size a ≤ (i a).val
      ∧ (i a).val < win0_11.index t a * S3x65536.size a + S3x65536.size a := by
  show i ∈ ((View.whole main_v11).slice (win0_11.rect t)).set ↔ _
  rw [View.set_slice_whole, Rect.mem_set_unit]
  exact Iff.rfl

/-- The 64 blocks cover the output, so it ends holding `colsV`. -/
theorem final (c : Dev nD) : (dats m 0 c).arrAt 11 cfg0.N = colsV m c :=
  (dats m 0 c).arrAt_eq_of_cover 11 (colsV m c) (fun t _ => flushed_eq m c t) fun i => by
    have h0 : (i 0).val < 3 := (i 0).isLt
    have h1 : (i 1).val < 4194304 := (i 1).isLt
    obtain ⟨t, ht⟩ : ∃ t : Fin cfg0.N, t.val = (i 1).val / 65536 := ⟨⟨(i 1).val / 65536, by rw [N_eq]; omega⟩, rfl⟩
    refine ⟨t, flush0_11 t, ?_⟩
    rw [mem_blk]
    obtain ⟨e0, e1⟩ := idx_o t
    intro a
    match a with
    | ⟨0, _⟩ =>
      show win0_11.index t (0 : Fin 2) * 3 ≤ (i 0).val ∧ (i 0).val < win0_11.index t (0 : Fin 2) * 3 + 3
      rw [e0]; omega
    | ⟨1, _⟩ =>
      show win0_11.index t (1 : Fin 2) * 65536 ≤ (i 1).val ∧ (i 1).val < win0_11.index t (1 : Fin 2) * 65536 + 65536
      rw [e1]; omega

/-! ## The arrays the region finds, and the line after it -/

theorem V_main_v0 (c : Dev nD) : (V m c main_v0 : Vec Ideal S1x4194304 .f32) = shapeCast S1x4194304 (m ((c : Thread nD τ).loc main_arg0)) shapeCasts_S4194304x1_S1x4194304 := by
  show StableHlo.after hostOps0 (fun b => m (c, b)) (Proc.devRef .tc main_v0) = _
  after_results
  try rfl
theorem V_main_v1 (c : Dev nD) : (V m c main_v1 : Vec Ideal S16x1 .f32) = transpose S16x1 [1, 0] (m ((c : Thread nD τ).loc main_arg1)) transposes_S1x16_S16x1_1_0 := by
  show StableHlo.after hostOps0 (fun b => m (c, b)) (Proc.devRef .tc main_v1) = _
  after_results
  try rfl
theorem V_main_v2 (c : Dev nD) : (V m c main_v2 : Vec Ideal S32x16 .f32) = transpose S32x16 [1, 0] (m ((c : Thread nD τ).loc main_arg3)) transposes_S16x32_S32x16_1_0 := by
  show StableHlo.after hostOps0 (fun b => m (c, b)) (Proc.devRef .tc main_v2) = _
  after_results
  try rfl
theorem V_main_v3 (c : Dev nD) : (V m c main_v3 : Vec Ideal S32x32 .f32) = transpose S32x32 [1, 0] (m ((c : Thread nD τ).loc main_arg5)) transposes_S32x32_S32x32_1_0 := by
  show StableHlo.after hostOps0 (fun b => m (c, b)) (Proc.devRef .tc main_v3) = _
  after_results
  try rfl
theorem V_main_v4 (c : Dev nD) : (V m c main_v4 : Vec Ideal S16x32 .f32) = transpose S16x32 [1, 0] (m ((c : Thread nD τ).loc main_arg7)) transposes_S32x16_S16x32_1_0 := by
  show StableHlo.after hostOps0 (fun b => m (c, b)) (Proc.devRef .tc main_v4) = _
  after_results
  try rfl
theorem V_main_v5 (c : Dev nD) : (V m c main_v5 : Vec Ideal S3x16 .f32) = transpose S3x16 [1, 0] (m ((c : Thread nD τ).loc main_arg9)) transposes_S16x3_S3x16_1_0 := by
  show StableHlo.after hostOps0 (fun b => m (c, b)) (Proc.devRef .tc main_v5) = _
  after_results
  try rfl
theorem V_main_v6 (c : Dev nD) : (V m c main_v6 : Vec Ideal S16x1 .f32) = shapeCast S16x1 (m ((c : Thread nD τ).loc main_arg2)) shapeCasts_S16_S16x1 := by
  show StableHlo.after hostOps0 (fun b => m (c, b)) (Proc.devRef .tc main_v6) = _
  after_results
  try rfl
theorem V_main_v7 (c : Dev nD) : (V m c main_v7 : Vec Ideal S32x1 .f32) = shapeCast S32x1 (m ((c : Thread nD τ).loc main_arg4)) shapeCasts_S32_S32x1 := by
  show StableHlo.after hostOps0 (fun b => m (c, b)) (Proc.devRef .tc main_v7) = _
  after_results
  try rfl
theorem V_main_v8 (c : Dev nD) : (V m c main_v8 : Vec Ideal S32x1 .f32) = shapeCast S32x1 (m ((c : Thread nD τ).loc main_arg6)) shapeCasts_S32_S32x1 := by
  show StableHlo.after hostOps0 (fun b => m (c, b)) (Proc.devRef .tc main_v8) = _
  after_results
  try rfl
theorem V_main_v9 (c : Dev nD) : (V m c main_v9 : Vec Ideal S16x1 .f32) = shapeCast S16x1 (m ((c : Thread nD τ).loc main_arg8)) shapeCasts_S16_S16x1 := by
  show StableHlo.after hostOps0 (fun b => m (c, b)) (Proc.devRef .tc main_v9) = _
  after_results
  try rfl
theorem V_main_v10 (c : Dev nD) : (V m c main_v10 : Vec Ideal S3x1 .f32) = shapeCast S3x1 (m ((c : Thread nD τ).loc main_arg10)) shapeCasts_S3_S3x1 := by
  show StableHlo.after hostOps0 (fun b => m (c, b)) (Proc.devRef .tc main_v10) = _
  after_results
  try rfl

/-- The line after the region transposes the output array. -/
theorem tail_eq (c : Dev nD) : Pipeline.afterTail₀ cfgs (dats m) 0 (V0 m) [hostOps1] c main_v12
    = transpose S4194304x3 [1, 0] ((dats m 0 c).arrAt 11 cfg0.N) transposes_S3x4194304_S4194304x3_1_0 := by
  unfold Pipeline.afterTail₀
  show StableHlo.after hostOps1 _ (Proc.devRef .tc main_v12) = _
  after_results
  exact congrArg (fun z => transpose S4194304x3 [1, 0] z transposes_S3x4194304_S4194304x3_1_0)
    (Pipeline.withArrays_arr spec0 launch0.win.arr_inj c _ _ 11)

/-- The result: the row layout of the arguments. -/
theorem result_eq (c : Dev nD) : Pipeline.afterTail₀ cfgs (dats m) 0 (V0 m) [hostOps1] c main_v12
    = Mlp.rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [tail_eq, final]
  unfold colsV
  rw [V_main_v0, V_main_v1, V_main_v2, V_main_v3, V_main_v4, V_main_v5, V_main_v6, V_main_v7, V_main_v8, V_main_v9, V_main_v10]
  exact Mlp.transpose_colsOf_eq_rows (N := 4194304) _ _ _ _ _ _ _ _ _ _ _ _ _ _ _ _ _ _ _ _ _ _ _

/-! ## The run, read -/

/-- Every weakly fair execution of the idealized kernel's program terminates with the result at `Mlp.rows` of the
    arguments and the arguments unchanged. -/
theorem run : θ_run defs (onTc (τ := τ) (main (F := Ideal))) ⟨m, fun _ => 0, ρ⟩ (fun r => ∀ c : Dev nD,
      r.2.mem ((c.tc : Thread nD τ).loc main_v12) = Mlp.rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩) (run_main m ρ)

end Cert.KernelIdeal.MlpValue

end
-- ==== Proof.Reference.lean ====
/-
  The reference, read at an entry: it keeps the samples along the rows and computes each layer as a product with the
  weight matrix plus the bias vector laid along every row; entry `(n, j)` of its result is output `j` of the network at
  sample `n`.
-/
import proofs.«110107_j5832565588325_2_alg».proof.Proof.Gen.ReferenceIdeal.Run
import proofs.«110107_j5832565588325_2_alg».proof.Proof.Mlp

noncomputable section

namespace Cert.ReferenceIdeal.MlpValue

open Cert.ReferenceIdeal Cert.ReferenceIdeal.Gen
open Idealize.ShloMosaic Idealize.ShloMosaic.TcCoe Idealize.ShloMosaic.ValueIdx Idealize.SL.Sem

/-- The five layers, innermost first: each `host_layer` reads one layer at sample `n` from the activations the layers
    before it leave at that sample. -/
theorem result_eq (A0 : FVec Ideal S4194304x1 .f32) (A1 : FVec Ideal S1x16 .f32) (A2 : FVec Ideal S16 .f32)
    (A3 : FVec Ideal S16x32 .f32) (A4 : FVec Ideal S32 .f32) (A5 : FVec Ideal S32x32 .f32) (A6 : FVec Ideal S32 .f32)
    (A7 : FVec Ideal S32x16 .f32) (A8 : FVec Ideal S16 .f32) (A9 : FVec Ideal S16x3 .f32) (A10 : FVec Ideal S3 .f32) :
    Host.tanh (addf (Host.dotGeneral dot_S4194304x16_S16x3_S4194304x3_1_0_0_1_n_n none (Host.tanh (addf (Host.dotGeneral dot_S4194304x32_S32x16_S4194304x16_1_0_0_1_n_n none (Host.tanh (addf (Host.dotGeneral dot_S4194304x32_S32x32_S4194304x32_1_0_0_1_n_n none (Host.tanh (addf (Host.dotGeneral dot_S4194304x16_S16x32_S4194304x32_1_0_0_1_n_n none (Host.tanh (addf (Host.dotGeneral dot_S4194304x1_S1x16_S4194304x16_1_0_0_1_n_n none A0 A1) (broadcastInDim S4194304x16 ![0, 1] bcast_S1x16_S4194304x16_0_1 (broadcastInDim S1x16 ![1] bcast_S16_S1x16_1 A2)))) A3) (broadcastInDim S4194304x32 ![0, 1] bcast_S1x32_S4194304x32_0_1 (broadcastInDim S1x32 ![1] bcast_S32_S1x32_1 A4)))) A5) (broadcastInDim S4194304x32 ![0, 1] bcast_S1x32_S4194304x32_0_1 (broadcastInDim S1x32 ![1] bcast_S32_S1x32_1 A6)))) A7) (broadcastInDim S4194304x16 ![0, 1] bcast_S1x16_S4194304x16_0_1 (broadcastInDim S1x16 ![1] bcast_S16_S1x16_1 A8)))) A9) (broadcastInDim S4194304x3 ![0, 1] bcast_S1x3_S4194304x3_0_1 (broadcastInDim S1x3 ![1] bcast_S3_S1x3_1 A10)))
      = Mlp.rows A0 A1 A2 A3 A4 A5 A6 A7 A8 A9 A10 := by
  funext i
  obtain ⟨n, j, rfl⟩ : ∃ (n : Fin 4194304) (j : Fin 3), i = ix2 n j := ⟨i 0, i 1, eq_ix2 i⟩
  unfold Mlp.rows Mlp.net
  exact Mlp.host_layer (N := 4194304) (K := 16) (M := 3) _ rfl _ A9 A10 _ _ _ n (fun k =>
    Mlp.host_layer (N := 4194304) (K := 32) (M := 16) _ rfl _ A7 A8 _ _ _ n (fun k =>
      Mlp.host_layer (N := 4194304) (K := 32) (M := 32) _ rfl _ A5 A6 _ _ _ n (fun k =>
        Mlp.host_layer (N := 4194304) (K := 16) (M := 32) _ rfl _ A3 A4 _ _ _ n (fun k =>
          Mlp.host_layer (N := 4194304) (K := 1) (M := 16) _ rfl A0 A1 A2 _ _ (fun _ => A0 (ix2 n (0 : Fin 1))) n
            (fun k => by rw [Fin.fin_one_eq_zero k]) k) k) k) k) j

end Cert.ReferenceIdeal.MlpValue

end
-- ==== Proof.lean ====
/-
  A five-layer perceptron (widths 1 → 16 → 32 → 32 → 16 → 3, tanh after every layer) applied to each of 4194304 scalar
  samples, in two programs.

  The reference keeps the samples along the rows: each layer is a product with the weight matrix plus the bias vector
  laid along every row, then tanh. The kernel keeps them along the columns: it relays the column of samples as one row,
  transposes the weights and relays the biases as columns; a grid of 64 points, each staging 65536 lanes of samples,
  runs the five layers on chunks of 8192 lanes — the first layer, of one input, as a product of two broadcasts, the
  others as matrix products into zero plus a bias column — and stores the 3 × 8192 outputs; the line after the region
  transposes the 3 × 4194304 output back.

  Over the extended reals both compute, for sample `n` and output `j`, the same nest of sums
  `tanh (∑ k, h k · W k j + b j)` (`Mlp.layer`, `Mlp.net`), the kernel with the two factors of every product exchanged:
  multiplication commutes, no sum is regrouped, so no entry needs to be finite.

    Proof/LibTanhLayer.lean  one layer at one sample, and as each layout spells it
    Proof/Mlp.lean        the network at one sample; the two whole-array layouts hold the same numbers
    Proof/Payload.lean    the value one pass of the body stores, at an entry
    Proof/Block.lean      the eight passes of the body's loop fill the staged output block with one function of its index
    Proof/Array.lean      the 64 blocks tile the output; the arrays the region finds; the transpose after it; the run
    Proof/Reference.lean  the reference's result, at an entry

  The frames of the two kernel programs and the launch side of the run are the generated modules'; the reference's run
  is the generated one. The idealization rewrote nothing, so `preserves` is `True`.
-/
import proofs.«110107_j5832565588325_2_alg».proof.Defs
import proofs.«110107_j5832565588325_2_alg».proof.Proof.Gen.Kernel
import proofs.«110107_j5832565588325_2_alg».proof.Proof.Gen.Kernel.Frame
import proofs.«110107_j5832565588325_2_alg».proof.Proof.Gen.KernelIdeal
import proofs.«110107_j5832565588325_2_alg».proof.Proof.Gen.KernelIdeal.Frame
import proofs.«110107_j5832565588325_2_alg».proof.Proof.Gen.ReferenceIdeal
import proofs.«110107_j5832565588325_2_alg».proof.Proof.Gen.ReferenceIdeal.Run
import proofs.«110107_j5832565588325_2_alg».proof.Proof.Gen.Pre_finite_inputs
import proofs.«110107_j5832565588325_2_alg».proof.Proof.Array
import proofs.«110107_j5832565588325_2_alg».proof.Proof.Reference
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the row layout of the network of the arguments; the arguments agree. -/
theorem algebraic : Cert.algebraic_KernelIdeal_ReferenceIdeal := by
  intro m ρ m' ρ' _ hagree
  refine ⟨fun c => Mlp.rows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.MlpValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.MlpValue.result_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
